-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x32 : Shape := ⟨2, ![8192, 32]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S8192x8192 .f32) (main_arg1 : FVec F S8192x32 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S8192x8192 : Shape := ⟨2, ![8192, 8192]⟩
abbrev S8192x32 : Shape := ⟨2, ![8192, 32]⟩
abbrev S8192x1 : Shape := ⟨2, ![8192, 1]⟩
abbrev S1024x2048 : Shape := ⟨2, ![1024, 2048]⟩
abbrev S1024x1 : Shape := ⟨2, ![1024, 1]⟩
abbrev S1024x32 : Shape := ⟨2, ![1024, 32]⟩
abbrev S1024 : Shape := ⟨1, ![1024]⟩
abbrev S2048x32 : Shape := ⟨2, ![2048, 32]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x32, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S8192x32, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x32, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v11 : BitVec 32 := Scalar.muli arg1 c2048_i32
  v11
def k0_off1 (i : grid0.Coords) : Fin 2 → Nat :=
  let arg1 : BitVec 32 := BitVec.ofNat 32 (i 1).val
  let c2048_i32 : BitVec 32 := 2048#32
  let v11 : BitVec 32 := Scalar.muli arg1 c2048_i32
  let v12 : BitVec 32 := v11
  let v13 : Index := Scalar.indexCast v12
  let c0_6 : Index := 0#32
  ![v13.toNat, 0]
def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def k0_mult2 (i : grid0.Coords) : BitVec 32 :=
  let arg0 : BitVec 32 := BitVec.ofNat 32 (i 0).val
  let c1024_i32 : BitVec 32 := 1024#32
  let v26 : BitVec 32 := Scalar.muli arg0 c1024_i32
  v26
def k0_off2 (i : grid0.Coords) : Fin 2 → Nat :=
  let arg0 : BitVec 32 := BitVec.ofNat 32 (i 0).val
  let c1024_i32 : BitVec 32 := 1024#32
  let v26 : BitVec 32 := Scalar.muli arg0 c1024_i32
  let v27 : BitVec 32 := v26
  let v28 : Index := Scalar.indexCast v27
  let c0_13 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  h_S2048x32 : 0 < S2048x32.numel
  bitsLt_bf16_f32 : FTy.bits .bf16 < FTy.bits .f32
  broadcasts_S1024x1_S1024x32 : S1024x1.Broadcasts S1024x32
  reduces_S1024x32_S1024 : S1024x32.Reduces [1] S1024
  reducesTo_S8192x1_S_d0_1 : S8192x1.ReducesTo [0, 1] S_
  h_S_ : 0 < S_.numel
  dot_S1024x2048_S2048x32_S1024x32_1_0_0_1_n_n_wf : DotDims.WF S1024x2048 S2048x32 S1024x32 [1] [0] [0] [1] [] []
  hrank0 : 0 < grid0.rank
  k0_mult1_dvd : ∀ i : grid0.Coords, 8 ∣ (k0_mult1 i).toNat
  k0_off1_inb : ∀ i : grid0.Coords, ∀ a, (k0_off1 i) a + S2048x32.size a ≤ S8192x32.size a
  k0_mult2_dvd : ∀ i : grid0.Coords, ∀ (k0_h2 : k0_cond2 i = 1#1), 8 ∣ (k0_mult2 i).toNat
  k0_off2_inb : ∀ i : grid0.Coords, ∀ (k0_h2 : k0_cond2 i = 1#1), ∀ a, (k0_off2 i) a + S1024x32.size a ≤ S8192x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x32 : Shape := ⟨2, ![8192, 32]⟩
abbrev S_ : Shape := ⟨0, ![]⟩
abbrev S8192 : Shape := ⟨1, ![8192]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x32, .f32⟩
  | .hbm, ⟨2, _⟩ => ⟨S_, .f32⟩
  | .hbm, ⟨3, _⟩ => ⟨S8192, .f32⟩
  | .hbm, ⟨4, _⟩ => ⟨S8192x32, .f32⟩
  | .hbm, ⟨5, _⟩ => ⟨S8192x1, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  reducesTo_S8192x32_S_d0_1 : S8192x32.ReducesTo [0, 1] S_
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Pieces.lean ====
/-
  What one run of the kernel body leaves behind, as values.

  At a grid point `(i, j)` the body holds the 1024 × 2048 block `Wb` of the weights (rows of row-block `i`, columns of
  column-block `j`) and the whole of `Y`. It reads two stretches of `Y`'s rows: the 2048 rows that face the block's
  columns (`yCols`: rows `2048 j …`) and, at the last column block, the 1024 rows that face the block's rows (`yRows`:
  rows `1024 i …`). Three kinds of point:
  * the first column block (`j = 0`) zeroes both accumulators and then adds the block in: the degree column ends at
    `k0_pay3 Wb 0`, the product at `k0_pay4 Wb yCols 0`;
  * a middle column block adds the block onto what the point before left (`d`, `acc`);
  * the last column block does the same and then stores the rows' results, computed from the two finished accumulators.
  Each statement says that the contents the body's stores leave in a buffer, read back, are that payload of the loads.
-/
import proofs.«158785_j86758339379794_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The 2048 rows of `Y` that face the columns of the block at grid point `i`. -/
def yCols (i : grid0.Coords) (Y : Vec F S8192x32 .f32) : Vec F S2048x32 .f32 :=
  View.ld Y (Rect.unit (s := S8192x32) (k0_off1 i) S2048x32.size (k0_off1_inb i))

/-- The 1024 rows of `Y` that face the rows of the block at grid point `i`, read at the last column block. -/
def yRows (i : grid0.Coords) (h : k0_cond2 i = 1#1) (Y : Vec F S8192x32 .f32) : Vec F S1024x32 .f32 :=
  View.ld Y (Rect.unit (s := S8192x32) (k0_off2 i) S1024x32.size (k0_off2_inb i h))

/-- First column block: the degree column is the block's row sums added onto the zero just stored. -/
theorem deg_first (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : cond0_0 i) (hc1 : ¬cond0_1 i)
    (x0 : Vec F S1024x2048 .f32) (x1 : Vec F S8192x32 .f32) :
    sout0_A_0 c i arg2 harg2 arg3 harg3 arg4 harg4 arg5 harg5 arg6 harg6 hc0 hc1 x0 x1 = k0_pay3 x0 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  try sl_unfold_run_names
  rw [View.canon_cons_unit_zero (S := S1024x1) hz, View.readCov_unit_zero (S := S1024x1) _ hz]
  simp only [View.readAt_eq_ld, harg2.read_unread, View.ld_unit_zero (S := S1024x2048) hz]

/-- First column block: the product is the block times its rows of `Y` added onto the zero just stored. -/
theorem prod_first (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : cond0_0 i) (hc1 : ¬cond0_1 i)
    (x0 : Vec F S1024x2048 .f32) (x1 : Vec F S8192x32 .f32) :
    sout0_A_1 c i arg2 harg2 arg3 harg3 arg4 harg4 arg5 harg5 arg6 harg6 hc0 hc1 x0 x1 = k0_pay4 x0 (yCols i x1) (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  try sl_unfold_run_names
  rw [View.canon_cons_unit_zero (S := S1024x32) hz, View.readCov_unit_zero (S := S1024x32) _ hz]
  simp only [View.readAt_eq_ld, harg2.read_unread, harg3.read_unread, View.ld_unit_zero (S := S1024x2048) hz]
  rfl

/-- A middle column block: the degree column gains the block's row sums. -/
theorem deg_mid (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : ¬cond0_0 i) (hc1 : ¬cond0_1 i)
    (x0 : Vec F S1024x2048 .f32) (x1 : Vec F S8192x32 .f32) (xs0 : Vec F S1024x1 .f32) (xs1 : Vec F S1024x32 .f32) :
    sout0_B_0 c i arg2 harg2 arg3 harg3 arg4 harg4 arg5 harg5 arg6 harg6 hc0 hc1 x0 x1 xs0 xs1 = k0_pay3 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  try sl_unfold_run_names
  rw [View.canon_unit_zero (S := S1024x1) hz]
  simp only [View.readAt_eq_ld, harg2.read_unread, harg5.read_unread, View.ld_unit_zero (S := S1024x2048) hz, View.ld_unit_zero (S := S1024x1) hz]

/-- A middle column block: the product gains the block times its rows of `Y`. -/
theorem prod_mid (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : ¬cond0_0 i) (hc1 : ¬cond0_1 i)
    (x0 : Vec F S1024x2048 .f32) (x1 : Vec F S8192x32 .f32) (xs0 : Vec F S1024x1 .f32) (xs1 : Vec F S1024x32 .f32) :
    sout0_B_1 c i arg2 harg2 arg3 harg3 arg4 harg4 arg5 harg5 arg6 harg6 hc0 hc1 x0 x1 xs0 xs1 = k0_pay4 x0 (yCols i x1) xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  try sl_unfold_run_names
  rw [View.canon_unit_zero (S := S1024x32) hz]
  simp only [View.readAt_eq_ld, harg2.read_unread, harg3.read_unread, harg6.read_unread, View.ld_unit_zero (S := S1024x2048) hz, View.ld_unit_zero (S := S1024x32) hz]
  rfl

/-- The last column block: the degree column gains the block's row sums. -/
theorem deg_last (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : ¬cond0_0 i) (hc1 : cond0_1 i)
    (x0 : Vec F S1024x2048 .f32) (x1 : Vec F S8192x32 .f32) (xs0 : Vec F S1024x1 .f32) (xs1 : Vec F S1024x32 .f32) :
    sout0_C_0 c i arg2 harg2 arg3 harg3 arg4 harg4 arg5 harg5 arg6 harg6 hc0 hc1 x0 x1 xs0 xs1 = k0_pay3 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  try sl_unfold_run_names
  rw [View.canon_unit_zero (S := S1024x1) hz]
  simp only [View.readAt_eq_ld, harg2.read_unread, harg5.read_unread, View.ld_unit_zero (S := S1024x2048) hz, View.ld_unit_zero (S := S1024x1) hz]

/-- The last column block: the product gains the block times its rows of `Y`. -/
theorem prod_last (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : ¬cond0_0 i) (hc1 : cond0_1 i)
    (x0 : Vec F S1024x2048 .f32) (x1 : Vec F S8192x32 .f32) (xs0 : Vec F S1024x1 .f32) (xs1 : Vec F S1024x32 .f32) :
    sout0_C_1 c i arg2 harg2 arg3 harg3 arg4 harg4 arg5 harg5 arg6 harg6 hc0 hc1 x0 x1 xs0 xs1 = k0_pay4 x0 (yCols i x1) xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  try sl_unfold_run_names
  rw [View.canon_unit_zero (S := S1024x32) hz]
  simp only [View.readAt_eq_ld, harg2.read_unread, harg3.read_unread, harg6.read_unread, View.ld_unit_zero (S := S1024x2048) hz, View.ld_unit_zero (S := S1024x32) hz]
  rfl

/-- The last column block: the output block is the rows' results from the rows of `Y` and the two accumulators as
    this point has just left them. -/
theorem out_last (c : Dev nD) (i : grid0.Coords) (arg2 : Memref sig .tc .vmem S1024x2048 .f32) (harg2 : arg2.IsWhole) (arg3 : Memref sig .tc .vmem S8192x32 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x32 .f32) (harg6 : arg6.IsWhole) (hc0 : ¬cond0_0 i) (hc1 : cond0_1 i)
    (x0 : Vec F S1024x2048 .f32) (x1 : Vec F S8192x32 .f32) (xs0 : Vec F S1024x1 .f32) (xs1 : Vec F S1024x32 .f32) :
    out0_C_2 c i arg2 harg2 arg3 harg3 arg4 harg4 arg5 harg5 arg6 harg6 hc0 hc1 x0 x1 xs0 xs1 = k0_pay5 (yRows i hc1 x1) (k0_pay4 x0 (yCols i x1) xs1) (k0_pay3 x0 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  try sl_unfold_run_names
  rw [View.canon_unit_zero (S := S1024x1) hz, View.readCov_unit_zero (S := S1024x32) _ hz, View.readCov_unit_zero (S := S1024x1) _ hz]
  simp only [View.readAt_eq_ld, harg2.read_unread, harg3.read_unread, harg5.read_unread, harg6.read_unread, View.ld_unit_zero (S := S1024x2048) hz, View.ld_unit_zero (S := S1024x32) hz, View.ld_unit_zero (S := S1024x1) hz]
  rfl

end Cert.KernelIdeal.Pieces

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowBlocks.lean ====
/-
  Rows of a matrix added up block by block, with every position a natural number.

  A kernel that walks a matrix in column blocks keeps, per row, a running total of what it has seen so far. To say
  "after block `j` the total is the sum over the first `b * (j + 1)` columns" without carrying bounds proofs
  through the induction, an array is read at natural-number coordinates (`atNat`: the entry when both coordinates are
  in range, zero otherwise) and partial sums run over `Finset.range`. Only addition's commutative-monoid laws are used,
  so everything holds on the extended reals with no finiteness assumption.

  * `atNat`, `atNat_of_lt`: the total read, and that it is the entry in range;
  * `sum_range_block`: the first `b * (j + 1)` terms are the first `b * j` terms plus block `j`'s `b` terms;
  * `sum_range_fin`: a sum of total reads over `range n` is the sum of the entries over `Fin n`;
  * `laneSum_column_apply`: a sum along the lanes kept as a column, at a row, is the sum of the row's entries;
  * `sum_idx_column`, `sum_idx_rows`: a sum over every index of an `[a, 1]` or `[a, b]` array, row by row.
-/
import Idealize.ShloMosaic.Lib.ValueIdx
import Idealize.ShloMosaic.Lib.Pipeline.Value
import Idealize.ShloMosaic.PureOps.Ideal.Laws
import proofs.«158785_j86758339379794_2_alg».proof.Proof.LibColumns

noncomputable section

namespace Cert.RowBlocks

open Idealize.ShloMosaic Idealize.ShloMosaic.ValueIdx
open scoped BigOperators

/-- An `[n0, n1]` array read at natural-number coordinates: the entry when both are in range, zero otherwise. -/
def atNat {n0 n1 : ℕ} (X : (⟨2, ![n0, n1]⟩ : Shape).Idx → EReal) (r c : ℕ) : EReal :=
  if h : r < n0 ∧ c < n1 then X (ix2 ⟨r, h.1⟩ ⟨c, h.2⟩) else 0

theorem atNat_of_lt {n0 n1 : ℕ} (X : (⟨2, ![n0, n1]⟩ : Shape).Idx → EReal) {r c : ℕ} (hr : r < n0) (hc : c < n1) :
    atNat X r c = X (ix2 ⟨r, hr⟩ ⟨c, hc⟩) := dif_pos ⟨hr, hc⟩

theorem atNat_fin {n0 n1 : ℕ} (X : (⟨2, ![n0, n1]⟩ : Shape).Idx → EReal) (r : Fin n0) (c : Fin n1) :
    atNat X r.val c.val = X (ix2 r c) := atNat_of_lt X r.isLt c.isLt

/-- The first `b * (j + 1)` terms of a sequence are its first `b * j` terms and then the `b` terms of block `j`. -/
theorem sum_range_block {M : Type*} [AddCommMonoid M] (f : ℕ → M) (b j : ℕ) :
    ∑ c ∈ Finset.range (b * (j + 1)), f c = ∑ c ∈ Finset.range (b * j), f c + ∑ q : Fin b, f (b * j + q.val) := by
  rw [Nat.mul_succ, Finset.sum_range_add, Finset.sum_range fun x => f (b * j + x)]

/-- A sum over `range n` of a function that is `g` on the positions below `n` is the sum of `g` over `Fin n`. -/
theorem sum_range_fin {M : Type*} [AddCommMonoid M] (n : ℕ) (f : ℕ → M) (g : Fin n → M) (h : ∀ k : Fin n, f k.val = g k) :
    ∑ c ∈ Finset.range n, f c = ∑ k : Fin n, g k := by
  rw [Finset.sum_range]; exact Finset.sum_congr rfl fun k _ => h k

/-- A sum along the lanes, kept as a column: at row `p` it is the sum of the row's entries. -/
theorem laneSum_column_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ k : Fin b, src (ix2 p k) :=
  (Cert.Columns.shapeCast_a_a1_apply _ hc p u).trans
    ((Ideal.multiReduction_add_single src acc h hφ hacc (ix1 p)).trans
      (Finset.sum_congr rfl fun k _ => congrArg src (funext fun d => Fin.ext (by
        match d with
        | ⟨0, _⟩ => rfl
        | ⟨1, _⟩ => rfl))))

/-- A sum over every index of an `[a, 1]` column is the sum of its `a` entries. -/
theorem sum_idx_column {M : Type*} [AddCommMonoid M] {a : ℕ} (f : (⟨2, ![a, 1]⟩ : Shape).Idx → M) :
    ∑ j : (⟨2, ![a, 1]⟩ : Shape).Idx, f j = ∑ r : Fin a, f (ix2 r (0 : Fin 1)) := by
  rw [sum_idx2]
  exact Finset.sum_congr rfl fun r _ => Fin.sum_univ_one _

/-- A sum over every index of an `[a, b]` array is the sum over the rows of the sums along each row. -/
theorem sum_idx_rows {M : Type*} [AddCommMonoid M] {a b : ℕ} (f : (⟨2, ![a, b]⟩ : Shape).Idx → M) :
    ∑ j : (⟨2, ![a, b]⟩ : Shape).Idx, f j = ∑ r : Fin a, ∑ k : Fin b, f (ix2 r k) := sum_idx2 f

end Cert.RowBlocks

end
-- ==== Proof.Blocks.lean ====
/-
  What the body's loads hold at grid point `t`, as entries of the two argument arrays.

  The 32 grid points run through the 8 row blocks and, inside each, the 4 column blocks: point `t` is row block
  `t / 4` and column block `t % 4`. So the weights' block at `t` holds, at `(p, q)`, the entry
  `W (1024 (t / 4) + p) (2048 (t % 4) + q)`; the second window is all of `Y` at every point; the rows of `Y` facing the
  block's columns are rows `2048 (t % 4) + q`, and those facing its rows are rows `1024 (t / 4) + p`.
  Entries are written with the total read `atNat` so that later sums can run over natural numbers.
-/
import proofs.«158785_j86758339379794_2_alg».proof.Proof.Pieces
import proofs.«158785_j86758339379794_2_alg».proof.Proof.LibRowBlocks

noncomputable section

namespace Cert.KernelIdeal.Blocks

open Cert.KernelIdeal Cert.KernelIdeal.Gen Cert.KernelIdeal.Pieces
open Idealize.ShloMosaic Idealize.ShloMosaic.TcCoe Idealize.SL.Sem Idealize.ShloMosaic.ValueIdx Cert.RowBlocks

variable (m : (ℓ : Loc nD τ sig) → Buf (Elt Ideal) ℓ)

/-- Point `t` of the grid is row block `t / 4`, column block `t % 4`; the three windows' block indices follow. -/
theorem grid_facts : ∀ t : Fin cfg0.N, (grid0.coords t 0).val = t.val / 4 ∧ (grid0.coords t 1).val = t.val % 4
    ∧ win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0 :=
  (by decide +kernel : ∀ t : Fin grid0.N, _)

/-- The weights as the region finds them. -/
abbrev Wm (c : Dev nD) : (⟨2, ![8192, 8192]⟩ : Shape).Idx → EReal := V m c main_arg0
/-- `Y` as the region finds it. -/
abbrev Ym (c : Dev nD) : (⟨2, ![8192, 32]⟩ : Shape).Idx → EReal := V m c main_arg1

/-- The weights' block at point `t`, entry `(p, q)`. -/
theorem wBlock_apply (c : Dev nD) (t : Fin cfg0.N) (p : Fin 1024) (q : Fin 2048) :
    (iblk m c 0 t : FVec Ideal S1024x2048 .f32) (ix2 p q)
      = atNat (Wm m c) (1024 * (t.val / 4) + p.val) (2048 * (t.val % 4) + q.val) := by
  obtain ⟨-, -, e0, e1, -⟩ := grid_facts t
  have hN : t.val < 32 := lt_of_lt_of_eq t.isLt N_0
  rw [atNat_of_lt (Wm m c) (by omega) (by omega)]
  show V m c main_arg0 (((cfg0.win 0).blk t).view.emb (ix2 p q)) = V m c main_arg0 _
  refine congrArg (V m c main_arg0) (funext fun a => Fin.ext ?_)
  match a with
  | ⟨0, _⟩ => show win0_0.index t (0 : Fin 2) * 1024 + 1 * p.val = 1024 * (t.val / 4) + p.val; rw [e0]; omega
  | ⟨1, _⟩ => show win0_0.index t (1 : Fin 2) * 2048 + 1 * q.val = 2048 * (t.val % 4) + q.val; rw [e1]; omega

/-- The second window's block is all of `Y`, at every point. -/
theorem yBlock_apply (c : Dev nD) (t : Fin cfg0.N) (r : Fin 8192) (k : Fin 32) :
    (iblk m c 1 t : FVec Ideal S8192x32 .f32) (ix2 r k) = Ym m c (ix2 r k) := by
  obtain ⟨-, -, -, -, e0, e1, -⟩ := grid_facts t
  show V m c main_arg1 (((cfg0.win 1).blk t).view.emb (ix2 r k)) = V m c main_arg1 _
  refine congrArg (V m c main_arg1) (funext fun a => Fin.ext ?_)
  match a with
  | ⟨0, _⟩ => show win0_1.index t (0 : Fin 2) * 8192 + 1 * r.val = r.val; rw [e0]; omega
  | ⟨1, _⟩ => show win0_1.index t (1 : Fin 2) * 32 + 1 * k.val = k.val; rw [e1]; omega

/-- The rows of `Y` facing the block's columns: row `q` of the stretch is row `2048 j + q` of `Y`, `j` the column block. -/
theorem yCols_apply (i : grid0.Coords) (Y : FVec Ideal S8192x32 .f32) (q : Fin 2048) (k : Fin 32) :
    yCols (F := Ideal) i Y (ix2 q k) = atNat Y (2048 * (i 1).val + q.val) k.val := by
  have hj : (i 1).val < 4 := (i 1).isLt
  rw [atNat_of_lt Y (by omega) k.isLt]
  unfold yCols
  show Y ((Rect.unit (s := S8192x32) (k0_off1 i) S2048x32.size (k0_off1_inb i)).idx (ix2 q k)) = Y _
  refine congrArg Y (funext fun a => Fin.ext ?_)
  match a with
  | ⟨0, _⟩ => show k0_off1 i 0 + 1 * q.val = 2048 * (i 1).val + q.val; rw [k0_off1_eq i]; show 2048 * (i 1).val + 1 * q.val = _; omega
  | ⟨1, _⟩ => show k0_off1 i 1 + 1 * k.val = k.val; rw [k0_off1_eq i]; show 0 + 1 * k.val = _; omega

/-- The rows of `Y` facing the block's rows: row `p` of the stretch is row `1024 i + p` of `Y`, `i` the row block. -/
theorem yRows_apply (i : grid0.Coords) (h : k0_cond2 i = 1#1) (Y : FVec Ideal S8192x32 .f32) (p : Fin 1024) (k : Fin 32) :
    yRows (F := Ideal) i h Y (ix2 p k) = atNat Y (1024 * (i 0).val + p.val) k.val := by
  have hi : (i 0).val < 8 := (i 0).isLt
  rw [atNat_of_lt Y (by omega) k.isLt]
  unfold yRows
  show Y ((Rect.unit (s := S8192x32) (k0_off2 i) S1024x32.size (k0_off2_inb i h)).idx (ix2 p k)) = Y _
  refine congrArg Y (funext fun a => Fin.ext ?_)
  match a with
  | ⟨0, _⟩ => show k0_off2 i 0 + 1 * p.val = 1024 * (i 0).val + p.val; rw [k0_off2_eq i]; show 1024 * (i 0).val + 1 * p.val = _; omega
  | ⟨1, _⟩ => show k0_off2 i 1 + 1 * k.val = k.val; rw [k0_off2_eq i]; show 0 + 1 * k.val = _; omega

/-- The second window's block, as a whole array, is `Y`. -/
theorem yBlock_eq (c : Dev nD) (t : Fin cfg0.N) : (iblk m c 1 t : FVec Ideal S8192x32 .f32) = Ym m c :=
  funext fun j => (congrArg (iblk m c 1 t : FVec Ideal S8192x32 .f32) (eq_ix2 j)).trans
    ((yBlock_apply m c t (j 0) (j 1)).trans (congrArg (Ym m c) (eq_ix2 j).symm))

/-- At point `t` the rows of `Y` facing the block's columns are rows `2048 (t % 4) + q`. -/
theorem yColsAt_apply (c : Dev nD) (t : Fin cfg0.N) (q : Fin 2048) (k : Fin 32) :
    yCols (F := Ideal) (grid0.coords t) (iblk m c 1 t) (ix2 q k) = atNat (Ym m c) (2048 * (t.val % 4) + q.val) k.val :=
  (yCols_apply (grid0.coords t) (iblk m c 1 t) q k).trans (by rw [yBlock_eq m c t, (grid_facts t).2.1])

/-- At point `t` the rows of `Y` facing the block's rows are rows `1024 (t / 4) + p`. -/
theorem yRowsAt_apply (c : Dev nD) (t : Fin cfg0.N) (h : k0_cond2 (grid0.coords t) = 1#1) (p : Fin 1024) (k : Fin 32) :
    yRows (F := Ideal) (grid0.coords t) h (iblk m c 1 t) (ix2 p k) = atNat (Ym m c) (1024 * (t.val / 4) + p.val) k.val :=
  (yRows_apply (grid0.coords t) h (iblk m c 1 t) p k).trans (by rw [yBlock_eq m c t, (grid_facts t).1])

end Cert.KernelIdeal.Blocks

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.Payloads.lean ====
/-
  The five values the kernel body stores, each read at one entry, on the extended reals.

  With `Wb` the 1024 × 2048 block of weights in hand, `Yk` the 2048 rows of `Y` that face the block's columns,
  `d` the 1024 × 1 column of running degrees and `acc` the 1024 × 32 running product:
  * the two initial values are zero everywhere;
  * the new degree of row `p` is `d p + Σ_q Wb p q`;
  * the new product at `(p, k)` is `acc p k + Σ_q Wb p q · Yk q k` (the roundings to bfloat16 on the way into the
    matrix unit are the identity on the extended reals, and the unit accumulates into a zero splat);
  * the row's result, from the 1024 rows `Yi` of `Y` that face the block's rows, is
    `Σ_k Yi p k · (Yi p k − acc p k / d p)`, the degree column repeated along the 32 lanes before the division.
-/
import proofs.«158785_j86758339379794_2_alg».proof.Proof.Gen.KernelIdeal.Skeleton
import proofs.«158785_j86758339379794_2_alg».proof.Proof.LibRowBlocks
import proofs.«158785_j86758339379794_2_alg».proof.Proof.LibMlpRows

noncomputable section

namespace Cert.KernelIdeal.Payloads

open Cert.KernelIdeal Cert.KernelIdeal.Gen Idealize.ShloMosaic Idealize.ShloMosaic.ValueIdx Cert.RowBlocks
open scoped BigOperators

/-- The printed dimension numbers of the body's matrix product are the plain ones: rows × contraction by contraction × columns. -/
theorem dot_plain : dot_S1024x2048_S2048x32_S1024x32_1_0_0_1_n_n = DotDims.plain 1024 2048 32 := rfl

/-- The degree column starts at zero. -/
theorem pay1_apply (p : Fin 1024) (u : Fin 1) : k0_pay1 (F := Ideal) (ix2 p u) = 0 := by
  unfold k0_pay1; (try dsimp only)
  exact (congrFun (shapeCast_self _ _) _).trans Ideal.ofBits_zero_f32

/-- The running product starts at zero. -/
theorem pay2_apply (p : Fin 1024) (k : Fin 32) : k0_pay2 (F := Ideal) (ix2 p k) = 0 := by
  unfold k0_pay2; (try dsimp only)
  exact (congrFun (shapeCast_self _ _) _).trans Ideal.ofBits_zero_f32

/-- One block more of the degree: the old value plus the sum of the block's row. -/
theorem pay3_apply (Wb : FVec Ideal S1024x2048 .f32) (d : FVec Ideal S1024x1 .f32) (p : Fin 1024) (u : Fin 1) :
    k0_pay3 (F := Ideal) Wb d (ix2 p u) = d (ix2 p u) + ∑ q : Fin 2048, Wb (ix2 p q) := by
  unfold k0_pay3; (try dsimp only)
  refine (congrFun (shapeCast_self _ _) _).trans ?_
  exact congrArg (d (ix2 p u) + ·) (laneSum_column_apply Wb _ _ _ _ _ p u)

/-- One block more of the product: the old value plus the block's row times the facing rows of `Y`. -/
theorem pay4_apply (Wb : FVec Ideal S1024x2048 .f32) (Yk : FVec Ideal S2048x32 .f32) (acc : FVec Ideal S1024x32 .f32)
    (p : Fin 1024) (k : Fin 32) :
    k0_pay4 (F := Ideal) Wb Yk acc (ix2 p k) = acc (ix2 p k) + ∑ q : Fin 2048, Wb (ix2 p q) * Yk (ix2 q k) := by
  unfold k0_pay4; (try dsimp only)
  refine (congrFun (shapeCast_self _ _) _).trans ?_
  refine congrArg (acc (ix2 p k) + ·) ?_
  exact Cert.LibMlp.matmul_zero_plain 1024 2048 32 none (truncf .bf16 Wb bitsLt_bf16_f32) (truncf .bf16 Yk bitsLt_bf16_f32) p k

/-- The row's result from its rows of `Y`, the finished product and the finished degree. -/
theorem pay5_apply (Yi : FVec Ideal S1024x32 .f32) (acc : FVec Ideal S1024x32 .f32) (d : FVec Ideal S1024x1 .f32)
    (p : Fin 1024) (u : Fin 1) :
    k0_pay5 (F := Ideal) Yi acc d (ix2 p u)
      = ∑ k : Fin 32, Yi (ix2 p k) * (Yi (ix2 p k) - Ideal.div (acc (ix2 p k)) (d (ix2 p (0 : Fin 1)))) := by
  unfold k0_pay5; (try dsimp only)
  refine (laneSum_column_apply _ _ _ _ _ _ p u).trans ?_
  refine Finset.sum_congr rfl fun k _ => ?_
  show Yi (ix2 p k) * (Yi (ix2 p k) - Ideal.div (acc (ix2 p k)) (broadcastTo S1024x32 d broadcasts_S1024x1_S1024x32 (ix2 p k))) = _
  rw [Cert.Columns.broadcastTo_a1_ab_apply d broadcasts_S1024x1_S1024x32 p k]

end Cert.KernelIdeal.Payloads

end
-- ==== Proof.Spec.lean ====
/-
  What both programs compute, as one function of the two argument arrays on the extended reals.

  `W` is an 8192 × 8192 matrix of weights and `Y` an 8192 × 32 matrix. Row `r` has the degree `d r = Σ_c W r c` and,
  for each of the 32 columns `k`, the product `(W Y) r k = Σ_c W r c · Y c k`. The row's term is
  `Σ_k Y r k · (Y r k − (W Y) r k / d r)`, and the result is the sum of the 8192 row terms divided by the float `8192.0`.
  The division is the extended reals' total one (`Ideal.div`); nothing here needs `d r ≠ 0` or any entry finite, because
  the two programs apply the same division to the same two numbers.

  The partial sums `degN`, `prodN` over the first `n` columns are what the kernel's two accumulators hold between
  column blocks: `degN_block` and `prodN_block` are one step of that accumulation, `degN_full` and `prodN_full` say
  that after all 8192 columns they are the row's plain sums.
-/
import proofs.«158785_j86758339379794_2_alg».proof.Proof.LibRowBlocks

noncomputable section

namespace Cert.Spectral

open Idealize.ShloMosaic Idealize.ShloMosaic.ValueIdx Cert.RowBlocks
open scoped BigOperators

abbrev SW : Shape := ⟨2, ![8192, 8192]⟩
abbrev SY : Shape := ⟨2, ![8192, 32]⟩
abbrev SCol : Shape := ⟨2, ![8192, 1]⟩

/-- The sum of the first `n` entries of row `r` of `W`. -/
def degN (W : SW.Idx → EReal) (r n : ℕ) : EReal := ∑ c ∈ Finset.range n, atNat W r c

/-- The first `n` terms of row `r` of `W` times column `k` of `Y`. -/
def prodN (W : SW.Idx → EReal) (Y : SY.Idx → EReal) (r k n : ℕ) : EReal :=
  ∑ c ∈ Finset.range n, atNat W r c * atNat Y c k

/-- Row `r`'s term: `Σ_k Y r k · (Y r k − (W Y) r k / d r)`. -/
def rowLoss (W : SW.Idx → EReal) (Y : SY.Idx → EReal) (r : ℕ) : EReal :=
  ∑ k : Fin 32, atNat Y r k.val * (atNat Y r k.val - Ideal.div (prodN W Y r k.val 8192) (degN W r 8192))

/-- The 8192 row terms as an `[8192, 1]` column. -/
def rowLossCol (W : SW.Idx → EReal) (Y : SY.Idx → EReal) : SCol.Idx → EReal := fun j => rowLoss W Y (j 0).val

/-- The result: the row terms added up and divided by the float `8192.0`. -/
def loss (W : SW.Idx → EReal) (Y : SY.Idx → EReal) : EReal :=
  Ideal.div (∑ r : Fin 8192, rowLoss W Y r.val) (Ideal.ofBits .f32 0x46000000#32)

theorem degN_zero (W : SW.Idx → EReal) (r : ℕ) : degN W r (2048 * 0) = 0 := by
  unfold degN; rw [Nat.mul_zero, Finset.range_zero, Finset.sum_empty]

theorem prodN_zero (W : SW.Idx → EReal) (Y : SY.Idx → EReal) (r k : ℕ) : prodN W Y r k (2048 * 0) = 0 := by
  unfold prodN; rw [Nat.mul_zero, Finset.range_zero, Finset.sum_empty]

/-- One column block more: the first `2048 (j + 1)` entries are the first `2048 j` and block `j`'s 2048. -/
theorem degN_block (W : SW.Idx → EReal) (r j : ℕ) :
    degN W r (2048 * (j + 1)) = degN W r (2048 * j) + ∑ q : Fin 2048, atNat W r (2048 * j + q.val) :=
  sum_range_block (fun c => atNat W r c) 2048 j

theorem prodN_block (W : SW.Idx → EReal) (Y : SY.Idx → EReal) (r k j : ℕ) :
    prodN W Y r k (2048 * (j + 1))
      = prodN W Y r k (2048 * j) + ∑ q : Fin 2048, atNat W r (2048 * j + q.val) * atNat Y (2048 * j + q.val) k :=
  sum_range_block (fun c => atNat W r c * atNat Y c k) 2048 j

/-- All 8192 columns: the row's degree. -/
theorem degN_full (W : SW.Idx → EReal) (r : Fin 8192) : degN W r.val 8192 = ∑ c : Fin 8192, W (ix2 r c) :=
  sum_range_fin 8192 _ _ fun c => atNat_fin W r c

/-- All 8192 columns: the row of `W` times the column of `Y`. -/
theorem prodN_full (W : SW.Idx → EReal) (Y : SY.Idx → EReal) (r : Fin 8192) (k : Fin 32) :
    prodN W Y r.val k.val 8192 = ∑ c : Fin 8192, W (ix2 r c) * Y (ix2 c k) :=
  sum_range_fin 8192 _ _ fun c => by rw [atNat_fin W r c, atNat_fin Y c k]

/-- The row term with every partial sum spelt as a plain sum over the 8192 columns. -/
theorem rowLoss_fin (W : SW.Idx → EReal) (Y : SY.Idx → EReal) (r : Fin 8192) :
    rowLoss W Y r.val = ∑ k : Fin 32, Y (ix2 r k) * (Y (ix2 r k)
      - Ideal.div (∑ c : Fin 8192, W (ix2 r c) * Y (ix2 c k)) (∑ c : Fin 8192, W (ix2 r c))) := by
  unfold rowLoss
  refine Finset.sum_congr rfl fun k _ => ?_
  rw [atNat_fin Y r k, prodN_full, degN_full]

end Cert.Spectral

end
-- ==== Proof.Steps.lean ====
/-
  One grid point's arithmetic, against the partial sums of the specification.

  Fix a row block: local row `p` of the block is row `R p` of the arrays. Suppose the weights' block in hand is column
  block `j` (its entry `(p, q)` is `W (R p) (2048 j + q)`) and the stretch of `Y` in hand is rows `2048 j + q`. Then
  * if the degree column holds the sums over the first `2048 j` columns, the value the body stores holds the sums over
    the first `2048 (j + 1)` (`deg_step`); the same for the running product (`prod_step`);
  * both also hold when the accumulator in hand is all zeros and `j = 0`, since an empty sum is zero (`deg_step_first`,
    `prod_step_first`);
  * from the rows `R p` of `Y` and the two accumulators after all 8192 columns, the stored result column holds the
    rows' terms `rowLoss W Y (R p)` (`out_step`).
-/
import proofs.«158785_j86758339379794_2_alg».proof.Proof.Payloads
import proofs.«158785_j86758339379794_2_alg».proof.Proof.Spec

noncomputable section

namespace Cert.KernelIdeal.Steps

open Cert.KernelIdeal Cert.KernelIdeal.Gen Cert.KernelIdeal.Payloads
open Idealize.ShloMosaic Idealize.ShloMosaic.ValueIdx Cert.RowBlocks Cert.Spectral
open scoped BigOperators

variable (W : SW.Idx → EReal) (Y : SY.Idx → EReal) (R : Fin 1024 → ℕ)

/-- The degree column after one column block more. -/
theorem deg_step (j : ℕ) (Wb : FVec Ideal S1024x2048 .f32) (d : FVec Ideal S1024x1 .f32)
    (hW : ∀ (p : Fin 1024) (q : Fin 2048), Wb (ix2 p q) = atNat W (R p) (2048 * j + q.val))
    (hd : ∀ (p : Fin 1024) (u : Fin 1), d (ix2 p u) = degN W (R p) (2048 * j)) (p : Fin 1024) (u : Fin 1) :
    k0_pay3 (F := Ideal) Wb d (ix2 p u) = degN W (R p) (2048 * (j + 1)) := by
  rw [pay3_apply, hd, degN_block]
  exact congrArg (degN W (R p) (2048 * j) + ·) (Finset.sum_congr rfl fun q _ => hW p q)

/-- The degree column after the first column block, from the zeros just stored. -/
theorem deg_step_first (Wb : FVec Ideal S1024x2048 .f32)
    (hW : ∀ (p : Fin 1024) (q : Fin 2048), Wb (ix2 p q) = atNat W (R p) (2048 * 0 + q.val)) (p : Fin 1024) (u : Fin 1) :
    k0_pay3 (F := Ideal) Wb (k0_pay1 (F := Ideal)) (ix2 p u) = degN W (R p) (2048 * (0 + 1)) :=
  deg_step W R 0 Wb _ hW (fun p u => (pay1_apply p u).trans (degN_zero W (R p)).symm) p u

/-- The running product after one column block more. -/
theorem prod_step (j : ℕ) (Wb : FVec Ideal S1024x2048 .f32) (Yk : FVec Ideal S2048x32 .f32) (acc : FVec Ideal S1024x32 .f32)
    (hW : ∀ (p : Fin 1024) (q : Fin 2048), Wb (ix2 p q) = atNat W (R p) (2048 * j + q.val))
    (hY : ∀ (q : Fin 2048) (k : Fin 32), Yk (ix2 q k) = atNat Y (2048 * j + q.val) k.val)
    (hacc : ∀ (p : Fin 1024) (k : Fin 32), acc (ix2 p k) = prodN W Y (R p) k.val (2048 * j)) (p : Fin 1024) (k : Fin 32) :
    k0_pay4 (F := Ideal) Wb Yk acc (ix2 p k) = prodN W Y (R p) k.val (2048 * (j + 1)) := by
  rw [pay4_apply, hacc, prodN_block]
  exact congrArg (prodN W Y (R p) k.val (2048 * j) + ·) (Finset.sum_congr rfl fun q _ => by rw [hW p q, hY q k])

/-- The running product after the first column block, from the zeros just stored. -/
theorem prod_step_first (Wb : FVec Ideal S1024x2048 .f32) (Yk : FVec Ideal S2048x32 .f32)
    (hW : ∀ (p : Fin 1024) (q : Fin 2048), Wb (ix2 p q) = atNat W (R p) (2048 * 0 + q.val))
    (hY : ∀ (q : Fin 2048) (k : Fin 32), Yk (ix2 q k) = atNat Y (2048 * 0 + q.val) k.val) (p : Fin 1024) (k : Fin 32) :
    k0_pay4 (F := Ideal) Wb Yk (k0_pay2 (F := Ideal)) (ix2 p k) = prodN W Y (R p) k.val (2048 * (0 + 1)) :=
  prod_step W Y R 0 Wb Yk _ hW hY (fun p k => (pay2_apply p k).trans (prodN_zero W Y (R p) k.val).symm) p k

/-- The rows' results from the finished accumulators. -/
theorem out_step (Yi : FVec Ideal S1024x32 .f32) (acc : FVec Ideal S1024x32 .f32) (d : FVec Ideal S1024x1 .f32)
    (hYi : ∀ (p : Fin 1024) (k : Fin 32), Yi (ix2 p k) = atNat Y (R p) k.val)
    (hacc : ∀ (p : Fin 1024) (k : Fin 32), acc (ix2 p k) = prodN W Y (R p) k.val 8192)
    (hd : ∀ (p : Fin 1024) (u : Fin 1), d (ix2 p u) = degN W (R p) 8192) (p : Fin 1024) (u : Fin 1) :
    k0_pay5 (F := Ideal) Yi acc d (ix2 p u) = rowLoss W Y (R p) := by
  rw [pay5_apply]
  unfold rowLoss
  exact Finset.sum_congr rfl fun k _ => by rw [hYi p k, hacc p k, hd p 0]

end Cert.KernelIdeal.Steps

end
-- ==== Proof.Invariant.lean ====
/-
  What the kernel's two accumulators hold after each grid point, and what the last column block writes.

  Point `n` is row block `n / 4`, column block `n % 4`; local row `p` is row `1024 (n / 4) + p` of the arrays.
  After point `n` the degree column holds, for each local row, the sum of that row of `W` over the first
  `2048 (n % 4 + 1)` columns, and the running product the sum of `W r c · Y c k` over the same columns (`acc_inv`).
  By induction on the point: at a first column block the accumulators start from the zeros the body has just stored;
  at any other, from what the point before left, which is the same row block one column block earlier.
  At a last column block (`n % 4 = 3`) all 8192 columns are in, and the block the body stores is the rows' terms
  `rowLoss W Y (1024 (n / 4) + p)` (`out_at`).
-/
import proofs.«158785_j86758339379794_2_alg».proof.Proof.Blocks
import proofs.«158785_j86758339379794_2_alg».proof.Proof.Steps

noncomputable section

namespace Cert.KernelIdeal.Invariant

open Cert.KernelIdeal Cert.KernelIdeal.Gen Cert.KernelIdeal.Pieces Cert.KernelIdeal.Blocks Cert.KernelIdeal.Steps
open Idealize.ShloMosaic Idealize.ShloMosaic.TcCoe Idealize.SL.Sem Idealize.ShloMosaic.ValueIdx Cert.RowBlocks Cert.Spectral

variable (m : (ℓ : Loc nD τ sig) → Buf (Elt Ideal) ℓ)

/-- Local row `p` of the row block of point `n`, as a row of the arrays. -/
abbrev rowOf (n : ℕ) (p : Fin 1024) : ℕ := 1024 * (n / 4) + p.val

/-- The two accumulators after point `n` hold the partial sums over the first `2048 (n % 4 + 1)` columns. -/
def AccInv (c : Dev nD) (n : ℕ) (h : n < cfg0.N) : Prop :=
  (∀ (p : Fin 1024) (u : Fin 1), (outsAt0 m c n h).2.1 (ix2 p u) = degN (Wm m c) (rowOf n p) (2048 * (n % 4 + 1)))
  ∧ (∀ (p : Fin 1024) (k : Fin 32), (outsAt0 m c n h).2.2 (ix2 p k) = prodN (Wm m c) (Ym m c) (rowOf n p) k.val (2048 * (n % 4 + 1)))

/-- A first column block: both accumulators start from the zeros just stored. -/
theorem inv_first (c : Dev nD) (t : Fin cfg0.N) (h0 : t.val % 4 = 0) : AccInv m c t.val t.isLt := by
  have h1 : ¬t.val % 4 = 3 := by omega
  unfold AccInv
  rw [outsAt0_A m c t h0 h1]
  dsimp only
  rw [deg_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    prod_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)]
  rw [h0]
  have hW : ∀ (p : Fin 1024) (q : Fin 2048), (iblk m c 0 t : FVec Ideal S1024x2048 .f32) (ix2 p q) = atNat (Wm m c) (rowOf t.val p) (2048 * 0 + q.val) :=
    fun p q => (wBlock_apply m c t p q).trans (by rw [h0])
  have hY : ∀ (q : Fin 2048) (k : Fin 32), yCols (F := Ideal) (grid0.coords t) (iblk m c 1 t) (ix2 q k) = atNat (Ym m c) (2048 * 0 + q.val) k.val :=
    fun q k => (yColsAt_apply m c t q k).trans (by rw [h0])
  exact ⟨fun p u => deg_step_first (Wm m c) (rowOf t.val) (iblk m c 0 t) hW p u,
    fun p k => prod_step_first (Wm m c) (Ym m c) (rowOf t.val) (iblk m c 0 t) (yCols (grid0.coords t) (iblk m c 1 t)) hW hY p k⟩

/-- What the step lemmas need of the point before, when `t` is not a first column block: the same row block, one
    column block earlier. -/
theorem prev_facts (t : Fin cfg0.N) (h0 : ¬t.val % 4 = 0) :
    (t.val - 1) / 4 = t.val / 4 ∧ (t.val - 1) % 4 + 1 = t.val % 4 := by omega

/-- Any other column block: the accumulators gain the block, from what the point before left. -/
theorem inv_next (c : Dev nD) (t : Fin cfg0.N) (h0 : ¬t.val % 4 = 0)
    (ih : AccInv m c (t.val - 1) (Nat.lt_of_le_of_lt (Nat.sub_le _ _) t.isLt)) : AccInv m c t.val t.isLt := by
  obtain ⟨e1, e2⟩ := prev_facts t h0
  obtain ⟨ihd, ihp⟩ := ih
  have hW : ∀ (p : Fin 1024) (q : Fin 2048), (iblk m c 0 t : FVec Ideal S1024x2048 .f32) (ix2 p q) = atNat (Wm m c) (rowOf t.val p) (2048 * (t.val % 4) + q.val) :=
    fun p q => wBlock_apply m c t p q
  have hY : ∀ (q : Fin 2048) (k : Fin 32), yCols (F := Ideal) (grid0.coords t) (iblk m c 1 t) (ix2 q k) = atNat (Ym m c) (2048 * (t.val % 4) + q.val) k.val :=
    fun q k => yColsAt_apply m c t q k
  have hd : ∀ (p : Fin 1024) (u : Fin 1), (outsAt0 m c (t.val - 1) (Nat.lt_of_le_of_lt (Nat.sub_le _ _) t.isLt)).2.1 (ix2 p u) = degN (Wm m c) (rowOf t.val p) (2048 * (t.val % 4)) :=
    fun p u => (ihd p u).trans (by rw [e2]; unfold rowOf; rw [e1])
  have hp : ∀ (p : Fin 1024) (k : Fin 32), (outsAt0 m c (t.val - 1) (Nat.lt_of_le_of_lt (Nat.sub_le _ _) t.isLt)).2.2 (ix2 p k) = prodN (Wm m c) (Ym m c) (rowOf t.val p) k.val (2048 * (t.val % 4)) :=
    fun p k => (ihp p k).trans (by rw [e2]; unfold rowOf; rw [e1])
  unfold AccInv
  by_cases h3 : t.val % 4 = 3
  · rw [outsAt0_C m c t h0 h3]
    dsimp only
    rw [deg_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
      prod_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]
    exact ⟨fun p u => deg_step (Wm m c) (rowOf t.val) (t.val % 4) (iblk m c 0 t) (outsAt0 m c (t.val - 1) (Nat.lt_of_le_of_lt (Nat.sub_le _ _) t.isLt)).2.1 hW hd p u,
      fun p k => prod_step (Wm m c) (Ym m c) (rowOf t.val) (t.val % 4) (iblk m c 0 t) (yCols (grid0.coords t) (iblk m c 1 t)) (outsAt0 m c (t.val - 1) (Nat.lt_of_le_of_lt (Nat.sub_le _ _) t.isLt)).2.2 hW hY hp p k⟩
  · have h1 : ¬t.val % 4 = 3 := h3
    rw [outsAt0_B m c t h0 h1]
    dsimp only
    rw [deg_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
      prod_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]
    exact ⟨fun p u => deg_step (Wm m c) (rowOf t.val) (t.val % 4) (iblk m c 0 t) (outsAt0 m c (t.val - 1) (Nat.lt_of_le_of_lt (Nat.sub_le _ _) t.isLt)).2.1 hW hd p u,
      fun p k => prod_step (Wm m c) (Ym m c) (rowOf t.val) (t.val % 4) (iblk m c 0 t) (yCols (grid0.coords t) (iblk m c 1 t)) (outsAt0 m c (t.val - 1) (Nat.lt_of_le_of_lt (Nat.sub_le _ _) t.isLt)).2.2 hW hY hp p k⟩

/-- The invariant holds after every point, by induction on the point. -/
theorem acc_inv (c : Dev nD) : ∀ (n : ℕ) (h : n < cfg0.N), AccInv m c n h := by
  intro n
  induction n with
  | zero => intro h; exact inv_first m c ⟨0, h⟩ rfl
  | succ n ih =>
    intro h
    by_cases h0 : (n + 1) % 4 = 0
    · exact inv_first m c ⟨n + 1, h⟩ h0
    · exact inv_next m c ⟨n + 1, h⟩ h0 (ih (Nat.lt_of_succ_lt h))

/-- A last column block stores the rows' terms. -/
theorem out_at (c : Dev nD) (t : Fin cfg0.N) (h3 : t.val % 4 = 3) (p : Fin 1024) (u : Fin 1) :
    (outsAt0 m c t.val t.isLt).1 (ix2 p u) = rowLoss (Wm m c) (Ym m c) (rowOf t.val p) := by
  have h0 : ¬t.val % 4 = 0 := by omega
  obtain ⟨hd, hp⟩ := acc_inv m c t.val t.isLt
  rw [outsAt0_C m c t h0 h3] at hd hp ⊢
  dsimp only at hd hp ⊢
  rw [deg_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2] at hd
  rw [prod_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2] at hp
  rw [out_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]
  rw [h3] at hd hp
  exact out_step (Wm m c) (Ym m c) (rowOf t.val) (yRows (grid0.coords t) ((hcond0_1 t).mpr h3) (iblk m c 1 t))
    (k0_pay4 (iblk m c 0 t) (yCols (grid0.coords t) (iblk m c 1 t)) (outsAt0 m c (t.val - 1) (Nat.lt_of_le_of_lt (Nat.sub_le _ _) t.isLt)).2.2)
    (k0_pay3 (iblk m c 0 t) (outsAt0 m c (t.val - 1) (Nat.lt_of_le_of_lt (Nat.sub_le _ _) t.isLt)).2.1)
    (fun p k => yRowsAt_apply m c t ((hcond0_1 t).mpr h3) p k) hp hd p u

end Cert.KernelIdeal.Invariant

end
-- ==== Proof.KernelValue.lean ====
/-
  The kernel's result, from its run.

  The output column `[8192, 1]` is written back in 8 blocks of 1024 rows, one per row block, each at the row block's
  last column block (points `4 i + 3`). What such a point writes back is the rows' terms of its 1024 rows
  (`Invariant.out_at`), which is block `i` of the one column `rowLossCol W Y`; the 8 blocks cover the column (row `r` is
  in the block of point `4 (r / 1024) + 3`), so after the region the column is `rowLossCol W Y` (`final`).
  The host lines after the region add the column up from zero and divide by `8192.0`: the sum over every index of an
  `[8192, 1]` array is the sum of its 8192 entries, so the result is `loss W Y`.
-/
import proofs.«158785_j86758339379794_2_alg».proof.Proof.Invariant
import Idealize.ShloMosaic.Lib.StableHlo.Run

noncomputable section

namespace Cert.KernelIdeal.KValue

open Cert.KernelIdeal Cert.KernelIdeal.Gen Cert.KernelIdeal.Blocks Cert.KernelIdeal.Invariant
open Idealize.ShloMosaic Idealize.ShloMosaic.TcCoe Idealize.SL.Sem Idealize.ShloMosaic.ValueIdx Cert.RowBlocks Cert.Spectral
open Idealize.ShloMosaic.Pipeline (Dat)
open scoped BigOperators

variable (m : (ℓ : Loc nD τ sig) → Buf (Elt Ideal) ℓ) (ρ : Dev nD → PrngReg)

/-- The column of row terms of the arrays as the region finds them. -/
abbrev col (c : Dev nD) : SCol.Idx → EReal := rowLossCol (Wm m c) (Ym m c)

/-- What a writing point writes back is its block of the column of row terms. -/
theorem flushed_eq (c : Dev nD) (t : Fin cfg0.N) (hf : (cfg0.win 2).flush t = true) :
    (dats m 0 c).flushed 2 t = ((cfg0.win 2).blk t).view.read (Elt Ideal) (col m c) := by
  have h3 : t.val % 4 = 3 := (flush0_2 t).mp hf
  obtain ⟨-, -, -, -, -, -, e0, -⟩ := grid_facts t
  show (cfg0.win 2).cut (grid0.coords t) ((dats m 0 c).after 2 t) = _
  rw [after0_2]
  funext j
  have hy := eq_ix2 (n0 := 1024) (n1 := 1) ((cfg0.win 2).xinj (grid0.coords t) j)
  refine (congrArg (outsAt0 m c t.val t.isLt).1 hy).trans ?_
  refine (out_at m c t h3 _ _).trans ?_
  show rowLoss (Wm m c) (Ym m c) (1024 * (t.val / 4) + (j 0).val) = rowLoss (Wm m c) (Ym m c) (win0_2.index t (0 : Fin 2) * 1024 + 1 * (j 0).val)
  rw [e0]
  exact congrArg (rowLoss (Wm m c) (Ym m c)) (by omega)

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Row `r` of the column is written back by the last column block of row block `r / 1024`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hlt : 4 * ((i 0).val / 1024) + 3 < cfg0.N := by rw [show cfg0.N = 32 from N_0]; omega
  obtain ⟨-, -, -, -, -, -, e0, e1⟩ := grid_facts ⟨4 * ((i 0).val / 1024) + 3, hlt⟩
  refine ⟨⟨4 * ((i 0).val / 1024) + 3, hlt⟩, (flush0_2 _).mpr (by show (4 * ((i 0).val / 1024) + 3) % 4 = 3; omega), ?_⟩
  rw [mem_blk]
  intro a
  match a with
  | ⟨0, _⟩ =>
    show win0_2.index ⟨4 * ((i 0).val / 1024) + 3, hlt⟩ (0 : Fin 2) * 1024 ≤ (i 0).val ∧ (i 0).val < win0_2.index ⟨4 * ((i 0).val / 1024) + 3, hlt⟩ (0 : Fin 2) * 1024 + 1024
    rw [e0]; show (4 * ((i 0).val / 1024) + 3) / 4 * 1024 ≤ (i 0).val ∧ (i 0).val < (4 * ((i 0).val / 1024) + 3) / 4 * 1024 + 1024; omega
  | ⟨1, _⟩ =>
    show win0_2.index ⟨4 * ((i 0).val / 1024) + 3, hlt⟩ (1 : Fin 2) * 1 ≤ (i 1).val ∧ (i 1).val < win0_2.index ⟨4 * ((i 0).val / 1024) + 3, hlt⟩ (1 : Fin 2) * 1 + 1
    rw [e1]; omega

/-- After the region the output column holds the row terms. -/
theorem final (c : Dev nD) : (dats m 0 c).arrAt 2 cfg0.N = col m c :=
  (dats m 0 c).arrAt_eq_of_cover 2 (col m c) (flushed_eq m c) cover

/-- The host's sum of an `[8192, 1]` column from the zero word is the sum of its 8192 entries. -/
theorem sum_tail (x : S8192x1.Idx → EReal) (i : S_.Idx) :
    Host.reduceAdd (F := Ideal) x (constant (F := Ideal) S_ .f32 0x00000000#32) reducesTo_S8192x1_S_d0_1 h_S_ i
      = ∑ r : Fin 8192, x (ix2 r (0 : Fin 1)) := by
  simp only [Host.reduceAdd, Ideal.hostReduceAdd_def]
  rw [Ideal.hostReduceAdd_total reducesTo_S8192x1_S_d0_1 (fun b => b.elim0) x _ i, sum_idx_column]
  show Ideal.ofBits .f32 0x00000000#32 + _ = _
  rw [Ideal.ofBits_zero_f32, zero_add]

/-- The host lines after the region, applied to the column of row terms, give the loss. -/
theorem tail_value (W : SW.Idx → EReal) (Y : SY.Idx → EReal) (i : S_.Idx) :
    Host.divf (F := Ideal) (Host.reduceAdd (F := Ideal) (rowLossCol W Y) (constant (F := Ideal) S_ .f32 0x00000000#32) reducesTo_S8192x1_S_d0_1 h_S_)
      (constant (F := Ideal) S_ .f32 0x46000000#32) i = loss W Y := by
  show Ideal.div (Host.reduceAdd (F := Ideal) (rowLossCol W Y) (constant (F := Ideal) S_ .f32 0x00000000#32) reducesTo_S8192x1_S_d0_1 h_S_ i) (Ideal.ofBits .f32 0x46000000#32) = _
  rw [sum_tail]
  rfl

/-- What the lines after the region leave in the result buffer: the tail's operations of the output column. -/
theorem tail_eq (c : Dev nD) :
    Pipeline.afterTail₀ cfgs (dats m) 0 (V0 m) [hostOps1] c main_v2
      = Host.divf (F := Ideal) (Host.reduceAdd (F := Ideal) (col m c) (constant (F := Ideal) S_ .f32 0x00000000#32) reducesTo_S8192x1_S_d0_1 h_S_)
          (constant (F := Ideal) S_ .f32 0x46000000#32) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0) = col m c from
    (Pipeline.withArrays_arr spec0 launch0.win.arr_inj c _ _ 2).trans (final m c)]

theorem result_mem : main_v2 ∈ Pipeline.restRefs sig (cfgs 0).spec :=
  Pipeline.mem_restRefs_of main_v2 rfl (fun w => by fin_cases w <;> decide)

/-- The kernel's run with its result named: the loss of the argument arrays; the arguments unchanged. -/
theorem run : θ_run defs (onTc (τ := τ) (main (F := Ideal))) ⟨m, fun _ => 0, ρ⟩ fun r => ∀ c : Dev nD,
      r.2.mem ((c.tc : Thread nD τ).loc main_v2)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 result_mem).trans ((tail_eq m c).trans (funext fun i => tail_value (Wm m c) (Ym m c) i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result is the loss.

  The reference computes the degrees `d r = 0 + Σ_c W r c`, the product `(W Y) r k = Σ_c W r c · Y c k`, repeats the
  degrees along the 32 columns, forms `Y r k · (Y r k − (W Y) r k / d r)` entry by entry, adds all 8192 × 32 entries up
  from zero and divides by `8192.0`. Read one operation at a time: the sum over every index of an `[8192, 32]` array is
  the sum over the rows of the sums along each row, the two leading zeros drop out, and what is left is `loss W Y` with
  the row terms in their plain-sum form (`rowLoss_fin`).
-/
import proofs.«158785_j86758339379794_2_alg».proof.Proof.Gen.ReferenceIdeal.Read
import proofs.«158785_j86758339379794_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.RowBlocks Cert.Spectral
open scoped BigOperators

/-- One entry of the reference's product array `Y · (Y − (W Y) / d)`. -/
theorem entry_eq (W : (⟨S8192x8192, .f32⟩ : BufTy).Contents (Elt Ideal)) (Y : (⟨S8192x32, .f32⟩ : BufTy).Contents (Elt Ideal))
    (r : Fin 8192) (k : Fin 32) :
    val_main_v6 (F := Ideal) W Y (ix2 r k)
      = Y (ix2 r k) * (Y (ix2 r k) - Ideal.div (∑ c : Fin 8192, W (ix2 r c) * Y (ix2 c k)) (∑ c : Fin 8192, W (ix2 r c))) := by
  have e1 : ∀ c : Fin 8192, lidx_main_v1 (ix2 r k) c = ix2 r c := fun c => funext fun a => Fin.ext (by
    match a with
    | ⟨0, _⟩ => rfl
    | ⟨1, _⟩ => rfl)
  have e2 : ∀ c : Fin 8192, ridx_main_v1 (ix2 r k) c = ix2 c k := fun c => funext fun a => Fin.ext (by
    match a with
    | ⟨0, _⟩ => rfl
    | ⟨1, _⟩ => rfl)
  have e3 : ∀ c : Fin 8192, idx_main_v0 (idx_main_v2 (idx_main_v3 (ix2 r k))) c = ix2 r c := fun c => funext fun a => Fin.ext (by
    match a with
    | ⟨0, _⟩ => rfl
    | ⟨1, _⟩ => rfl)
  rw [val_main_v6_apply, val_main_v5_apply, val_main_v4_apply, val_main_v1_apply, val_main_v3_apply, val_main_v2_apply, val_main_v0_apply]
  show Y (ix2 r k) * (Y (ix2 r k) - Ideal.div (∑ c : Fin 8192, W (lidx_main_v1 (ix2 r k) c) * Y (ridx_main_v1 (ix2 r k) c))
    (Ideal.ofBits .f32 0x00000000#32 + ∑ c : Fin 8192, W (idx_main_v0 (idx_main_v2 (idx_main_v3 (ix2 r k))) c))) = _
  rw [Ideal.ofBits_zero_f32, zero_add]
  simp only [e1, e2, e3]

/-- The reference's result, at its one index, is the loss of its two arguments. -/
theorem result_eq (W : (⟨S8192x8192, .f32⟩ : BufTy).Contents (Elt Ideal)) (Y : (⟨S8192x32, .f32⟩ : BufTy).Contents (Elt Ideal))
    (i : S_.Idx) : val_main_v8 (F := Ideal) W Y i = loss W Y := by
  rw [val_main_v8_apply, val_main_v7_apply, sum_idx_rows]
  show Ideal.div (Ideal.ofBits .f32 0x00000000#32 + ∑ r : Fin 8192, ∑ k : Fin 32, val_main_v6 (F := Ideal) W Y (ix2 r k))
    (Ideal.ofBits .f32 0x46000000#32) = _
  rw [Ideal.ofBits_zero_f32, zero_add]
  unfold loss
  refine congrArg (Ideal.div · (Ideal.ofBits .f32 0x46000000#32)) (Finset.sum_congr rfl fun r _ => ?_)
  rw [rowLoss_fin]
  exact Finset.sum_congr rfl fun k _ => entry_eq W Y r k

end Cert.ReferenceIdeal.RefValue

end
-- ==== Proof.lean ====
/-
  The kernel and the reference compute one number: the mean over the 8192 rows `r` of
  `Σ_k Y r k · (Y r k − (Σ_c W r c · Y c k) / (Σ_c W r c))`, the sum of the row terms divided by the float `8192.0`
  (`Cert.Spectral.loss`, Proof/Spec.lean), read on the extended reals.

  The reference forms the degrees and the product `W Y` in one sum each over the 8192 columns and adds all
  8192 × 32 entries of `Y · (Y − W Y / d)` in one sum. The kernel walks `W` in blocks of 1024 rows by 2048 columns:
  per row block it keeps a column of running degrees and a 1024 × 32 running product, both zeroed at the first
  column block and added into at each of the four; at the fourth it divides, multiplies and sums along the 32 lanes,
  and writes the 1024 row terms out; the host then adds the 8192 row terms and divides. Roundings to bfloat16 on the
  way into the matrix unit are the identity on the extended reals, so the two differ only in how the sums are grouped,
  and addition on the extended reals is commutative and associative: no entry needs to be finite, and a zero degree
  is divided by in the same way on both sides, so the precondition is never opened.

  The modules: Spec (the function and its partial sums), Payloads (the body's five stored values at an entry),
  Pieces (what one run of the body leaves, as those values), Blocks (the loads as entries of the arrays), Steps (one
  grid point against the partial sums), Invariant (the accumulators after every point, by induction), KernelValue
  (the output column, the host's last lines, the kernel's run), RefValue (the reference's result). The three frames
  are the generated ones; the idealization rewrote no operation, so there is nothing to preserve.
-/
import proofs.«158785_j86758339379794_2_alg».proof.Defs
import proofs.«158785_j86758339379794_2_alg».proof.Proof.Gen.Kernel
import proofs.«158785_j86758339379794_2_alg».proof.Proof.Gen.Kernel.Frame
import proofs.«158785_j86758339379794_2_alg».proof.Proof.Gen.KernelIdeal
import proofs.«158785_j86758339379794_2_alg».proof.Proof.Gen.KernelIdeal.Frame
import proofs.«158785_j86758339379794_2_alg».proof.Proof.Gen.ReferenceIdeal
import proofs.«158785_j86758339379794_2_alg».proof.Proof.Gen.ReferenceIdeal.Run
import proofs.«158785_j86758339379794_2_alg».proof.Proof.Gen.ReferenceIdeal.Read
import proofs.«158785_j86758339379794_2_alg».proof.Proof.Gen.Pre_finite_inputs
import proofs.«158785_j86758339379794_2_alg».proof.Proof.KernelValue
import proofs.«158785_j86758339379794_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on `W` and `Y` both programs end with the loss of those two arrays in their result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  exact funext fun i => Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
